-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768x512 : Shape := ⟨2, ![32768, 512]⟩
abbrev S512x512 : Shape := ⟨2, ![512, 512]⟩
abbrev S512 : Shape := ⟨1, ![512]⟩
abbrev S1024x512 : Shape := ⟨2, ![1024, 512]⟩
abbrev S1024x4096 : Shape := ⟨2, ![1024, 4096]⟩
abbrev S4096 : Shape := ⟨1, ![4096]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S1024x512 .f32) (main_arg5 : FVec F S512 .f32) (main_arg6 : FVec F S1024x4096 .f32) (main_arg7 : FVec F S4096 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_v33

def fn {F : FTy → Type} [FloatOps F] (main_arg0 : FVec F S32768x1024 .f32) (main_arg1 : FVec F S32768x512 .f32) (main_arg2 : FVec F S512x512 .f32) (main_arg3 : FVec F S512 .f32) (main_arg4 : FVec F S1024x512 .f32) (main_arg5 : FVec F S512 .f32) (main_arg6 : FVec F S1024x4096 .f32) (main_arg7 : FVec F S4096 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S32768x1024 : Shape := ⟨2, ![32768, 1024]⟩
abbrev S32768x512 : Shape := ⟨2, ![32768, 512]⟩
abbrev S512x512 : Shape := ⟨2, ![512, 512]⟩
abbrev S512 : Shape := ⟨1, ![512]⟩
abbrev S1024x512 : Shape := ⟨2, ![1024, 512]⟩
abbrev S1024x4096 : Shape := ⟨2, ![1024, 4096]⟩
abbrev S4096 : Shape := ⟨1, ![4096]⟩
abbrev S512x1024 : Shape := ⟨2, ![512, 1024]⟩
abbrev S1x512 : Shape := ⟨2, ![1, 512]⟩
abbrev S512x128 : Shape := ⟨2, ![512, 128]⟩
abbrev S512x1 : Shape := ⟨2, ![512, 1]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S1024x4096, .f32⟩
  | .hbm, ⟨7, _⟩ => ⟨S4096, .f32⟩
  | .hbm, ⟨8, _⟩ => ⟨S512x512, .bf16⟩
  | .hbm, ⟨9, _⟩ => ⟨S1024x512, .bf16⟩
  | .hbm, ⟨10, _⟩ => ⟨S1024x4096, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512, .f32⟩
  | .local _ .vmem, ⟨6, _⟩ => ⟨S1024x512, .bf16⟩
  | .local _ .vmem, ⟨7, _⟩ => ⟨S512, .f32⟩
  | .local _ .vmem, ⟨8, _⟩ => ⟨S1024x4096, .bf16⟩
  | .local _ .vmem, ⟨9, _⟩ => ⟨S4096, .f32⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S512x512_o0_0_S512x128 : S512x512.Slices ![0, 0] S512x128
  reduces_S512x128_S512 : S512x128.Reduces [1] S512
  shapeCasts_S512_S512x1 : S512.ShapeCasts S512x1
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S4096_S1024_0 : ∀ a, (![0] : Fin 1 → Nat) a + S1024.size a ≤ S4096.size a
  h_S1024 : 0 < S1024.numel
  shapeCasts_S1024_S1x1024 : S1024.ShapeCasts S1x1024
  broadcasts_S1x1024_S512x1024 : S1x1024.Broadcasts S512x1024
  broadcasts_S512x1_S512x1024 : S512x1.Broadcasts S512x1024
  slices_S512x512_o0_128_S512x128 : S512x512.Slices ![0, 128] S512x128
  inb_S1024x4096_S1024x1024_0_1024 : ∀ a, (![0, 1024] : Fin 2 → Nat) a + S1024x1024.size a ≤ S1024x4096.size a
  inb_S4096_S1024_1024 : ∀ a, (![1024] : Fin 1 → Nat) a + S1024.size a ≤ S4096.size a
  slices_S512x512_o0_256_S512x128 : S512x512.Slices ![0, 256] S512x128
  inb_S1024x4096_S1024x1024_0_2048 : ∀ a, (![0, 2048] : Fin 2 → Nat) a + S1024x1024.size a ≤ S1024x4096.size a
  inb_S4096_S1024_2048 : ∀ a, (![2048] : Fin 1 → Nat) a + S1024.size a ≤ S4096.size a
  slices_S512x512_o0_384_S512x128 : S512x512.Slices ![0, 384] S512x128
  inb_S1024x4096_S1024x1024_0_3072 : ∀ a, (![0, 3072] : Fin 2 → Nat) a + S1024x1024.size a ≤ S1024x4096.size a
  inb_S4096_S1024_3072 : ∀ a, (![3072] : Fin 1 → Nat) a + S1024.size a ≤ S4096.size a
  dot_S512x512_S512x512_S512x512_1_0_0_1_n_n_wf : DotDims.WF S512x512 S512x512 S512x512 [1] [0] [0] [1] [] []
  dot_S512x1024_S1024x512_S512x512_1_0_0_1_n_n_wf : DotDims.WF S512x1024 S1024x512 S512x512 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096.size a ≤ S4096.size a
  hwx0_7 : ∀ i : grid0.Coords, EltTy.bits .f32 = 32 ∨ (Rect.block (s := S4096) S4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S32768x1024.size a
  hwx0_8 : ∀ i : grid0.Coords, EltTy.bits .f32 = 32 ∨ (Rect.block (s := S32768x1024) S512x1024.size (cc0_transform_8 i) (hinb0_8 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768x512 : Shape := ⟨2, ![32768, 512]⟩
abbrev S512x512 : Shape := ⟨2, ![512, 512]⟩
abbrev S512 : Shape := ⟨1, ![512]⟩
abbrev S1024x512 : Shape := ⟨2, ![1024, 512]⟩
abbrev S1024x4096 : Shape := ⟨2, ![1024, 4096]⟩
abbrev S4096 : Shape := ⟨1, ![4096]⟩
abbrev S1x512 : Shape := ⟨2, ![1, 512]⟩
abbrev S32768x4x128 : Shape := ⟨3, ![32768, 4, 128]⟩
abbrev S32768x4096 : Shape := ⟨2, ![32768, 4096]⟩
abbrev S1x4096 : Shape := ⟨2, ![1, 4096]⟩
abbrev S32768x4x1024 : Shape := ⟨3, ![32768, 4, 1024]⟩
abbrev S_ : Shape := ⟨0, ![]⟩
abbrev S32768x4 : Shape := ⟨2, ![32768, 4]⟩
abbrev S32768x4x1 : Shape := ⟨3, ![32768, 4, 1]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S1024x4096, .f32⟩
  | .hbm, ⟨7, _⟩ => ⟨S4096, .f32⟩
  | .hbm, ⟨8, _⟩ => ⟨S32768x512, .f32⟩
  | .hbm, ⟨9, _⟩ => ⟨S1x512, .f32⟩
  | .hbm, ⟨10, _⟩ => ⟨S32768x512, .f32⟩
  | .hbm, ⟨11, _⟩ => ⟨S32768x512, .f32⟩
  | .hbm, ⟨12, _⟩ => ⟨S32768x4x128, .f32⟩
  | .hbm, ⟨13, _⟩ => ⟨S32768x512, .f32⟩
  | .hbm, ⟨14, _⟩ => ⟨S1x512, .f32⟩
  | .hbm, ⟨15, _⟩ => ⟨S32768x512, .f32⟩
  | .hbm, ⟨16, _⟩ => ⟨S32768x512, .f32⟩
  | .hbm, ⟨17, _⟩ => ⟨S32768x4x128, .f32⟩
  | .hbm, ⟨18, _⟩ => ⟨S32768x4096, .f32⟩
  | .hbm, ⟨19, _⟩ => ⟨S1x4096, .f32⟩
  | .hbm, ⟨20, _⟩ => ⟨S32768x4096, .f32⟩
  | .hbm, ⟨21, _⟩ => ⟨S32768x4096, .f32⟩
  | .hbm, ⟨22, _⟩ => ⟨S32768x4x1024, .f32⟩
  | .hbm, ⟨23, _⟩ => ⟨S32768x4x128, .f32⟩
  | .hbm, ⟨24, _⟩ => ⟨S_, .f32⟩
  | .hbm, ⟨25, _⟩ => ⟨S32768x4, .f32⟩
  | .hbm, ⟨26, _⟩ => ⟨S32768x4x1, .f32⟩
  | .hbm, ⟨27, _⟩ => ⟨S32768x4x1024, .f32⟩
  | .hbm, ⟨28, _⟩ => ⟨S32768x4x1024, .f32⟩
  | .hbm, ⟨29, _⟩ => ⟨S_, .f32⟩
  | .hbm, ⟨30, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  shapeCasts_S32768x512_S32768x4x128 : S32768x512.ShapeCasts S32768x4x128
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  shapeCasts_S32768x4096_S32768x4x1024 : S32768x4096.ShapeCasts S32768x4x1024
  reducesTo_S32768x4x128_S32768x4_d2 : S32768x4x128.ReducesTo [2] S32768x4
  h_S_ : 0 < S_.numel
  bcast_S32768x4_S32768x4x1_0_1 : S32768x4.BroadcastsInDim S32768x4x1 (![0, 1] : Fin 2 → Fin S32768x4x1.rank)
  bcast_S32768x4x1_S32768x4x1024_0_1_2 : S32768x4x1.BroadcastsInDim S32768x4x1024 (![0, 1, 2] : Fin 3 → Fin S32768x4x1024.rank)
  reducesTo_S32768x4x1024_S32768x1024_d1 : S32768x4x1024.ReducesTo [1] S32768x1024
  dot_S32768x512_S512x512_S32768x512_1_0_0_1_n_n_wf : DotDims.WF S32768x512 S512x512 S32768x512 [1] [0] [0] [1] [] []
  dot_S32768x1024_S1024x512_S32768x512_1_0_0_1_n_n_wf : DotDims.WF S32768x1024 S1024x512 S32768x512 [1] [0] [0] [1] [] []
  dot_S32768x1024_S1024x4096_S32768x4096_1_0_0_1_n_n_wf : DotDims.WF S32768x1024 S1024x4096 S32768x4096 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x1024_S1024x4096_S32768x4096_1_0_0_1_n_n : DotDims S32768x1024 S1024x4096 S32768x4096 where
  lhsContracting := [1]
  rhsContracting := [0]
  lhsNonContracting := [0]
  rhsNonContracting := [1]
  lhsBatch := []
  rhsBatch := []
  wf := dot_S32768x1024_S1024x4096_S32768x4096_1_0_0_1_n_n_wf

class Facts : Prop extends Facts₀ where

variable [Facts]
-- ==== Proof.HeadPoolSpec.lean ====
/-
  The function both programs compute, one row at a time.

  A row of the result depends on one row xd of the first input (1024 entries) and one row xo of the second
  (512 entries) only.  With the affine maps

      q j = (sum over r of xo r * wq (r, j)) + bq j          (j < 512),
      k j = (sum over r of xd r * wk (r, j)) + bk j          (j < 512),
      v j = (sum over r of xd r * wv (r, j)) + bv j          (j < 4096),

  head h (of four) has the score  s h = sum over c < 128 of q (128 h + c) * k (128 h + c),  and entry d (< 1024) of
  the row is the largest of the four products  s h * v (1024 h + d).  Everything is read on the extended reals:
  sums, products and the maximum are the exact ones, so nothing here needs the entries to be finite.

  Also here: the fold of the maximum over the four heads started from minus infinity is the nested maximum
  of the four terms in order.
-/
import Idealize.ShloMosaic.PureOps.Ideal.Laws
import Idealize.ShloMosaic.Lib.ValueIdx

noncomputable section

open scoped BigOperators

namespace Cert.HeadPool

open Idealize.ShloMosaic Idealize.ShloMosaic.ValueIdx

/-- Column 128 h + c of a 512-column array: entry c of head h. -/
abbrev headCol (h : Fin 4) (c : Fin 128) : Fin 512 := ⟨128 * h.val + c.val, by have := h.isLt; have := c.isLt; omega⟩

/-- Column 1024 h + d of a 4096-column array: entry d of head h's value block. -/
abbrev valueCol (h : Fin 4) (d : Fin 1024) : Fin 4096 := ⟨1024 * h.val + d.val, by have := h.isLt; have := d.isLt; omega⟩

/-- One entry of an affine map of a row: the row against column j of the weights, plus the bias at j. -/
def proj {K M : ℕ} (x : Fin K → EReal) (w : (⟨2, ![K, M]⟩ : Shape).Idx → EReal) (b : (⟨1, ![M]⟩ : Shape).Idx → EReal)
    (j : Fin M) : EReal :=
  (∑ r : Fin K, x r * w (ix2 r j)) + b (ix1 j)

/-- The score of head h: the inner product of the head's 128 query entries with its 128 key entries. -/
def headScore (xd : Fin 1024 → EReal) (xo : Fin 512 → EReal)
    (wq : (⟨2, ![512, 512]⟩ : Shape).Idx → EReal) (bq : (⟨1, ![512]⟩ : Shape).Idx → EReal)
    (wk : (⟨2, ![1024, 512]⟩ : Shape).Idx → EReal) (bk : (⟨1, ![512]⟩ : Shape).Idx → EReal) (h : Fin 4) : EReal :=
  ∑ c : Fin 128, proj xo wq bq (headCol h c) * proj xd wk bk (headCol h c)

/-- Head h's contribution to entry d of the row: its score times entry d of its value block. -/
def headTerm (xd : Fin 1024 → EReal) (xo : Fin 512 → EReal)
    (wq : (⟨2, ![512, 512]⟩ : Shape).Idx → EReal) (bq : (⟨1, ![512]⟩ : Shape).Idx → EReal)
    (wk : (⟨2, ![1024, 512]⟩ : Shape).Idx → EReal) (bk : (⟨1, ![512]⟩ : Shape).Idx → EReal)
    (wv : (⟨2, ![1024, 4096]⟩ : Shape).Idx → EReal) (bv : (⟨1, ![4096]⟩ : Shape).Idx → EReal)
    (h : Fin 4) (d : Fin 1024) : EReal :=
  headScore xd xo wq bq wk bk h * proj xd wv bv (valueCol h d)

/-- Entry d of the result's row: the largest of the four heads' contributions. -/
def rowOut (xd : Fin 1024 → EReal) (xo : Fin 512 → EReal)
    (wq : (⟨2, ![512, 512]⟩ : Shape).Idx → EReal) (bq : (⟨1, ![512]⟩ : Shape).Idx → EReal)
    (wk : (⟨2, ![1024, 512]⟩ : Shape).Idx → EReal) (bk : (⟨1, ![512]⟩ : Shape).Idx → EReal)
    (wv : (⟨2, ![1024, 4096]⟩ : Shape).Idx → EReal) (bv : (⟨1, ![4096]⟩ : Shape).Idx → EReal)
    (d : Fin 1024) : EReal :=
  max (max (max (headTerm xd xo wq bq wk bk wv bv 0 d) (headTerm xd xo wq bq wk bk wv bv 1 d))
    (headTerm xd xo wq bq wk bk wv bv 2 d)) (headTerm xd xo wq bq wk bk wv bv 3 d)

/-- The whole result: row n of it is `rowOut` of row n of the two row inputs. -/
def pooled (Xd : (⟨2, ![32768, 1024]⟩ : Shape).Idx → EReal) (Xo : (⟨2, ![32768, 512]⟩ : Shape).Idx → EReal)
    (wq : (⟨2, ![512, 512]⟩ : Shape).Idx → EReal) (bq : (⟨1, ![512]⟩ : Shape).Idx → EReal)
    (wk : (⟨2, ![1024, 512]⟩ : Shape).Idx → EReal) (bk : (⟨1, ![512]⟩ : Shape).Idx → EReal)
    (wv : (⟨2, ![1024, 4096]⟩ : Shape).Idx → EReal) (bv : (⟨1, ![4096]⟩ : Shape).Idx → EReal) :
    (⟨2, ![32768, 1024]⟩ : Shape).Idx → EReal :=
  fun i => rowOut (fun r => Xd (ix2 (i 0) r)) (fun r => Xo (ix2 (i 0) r)) wq bq wk bk wv bv (i 1)

/-- The maximum folded over four terms from minus infinity is their nested maximum, in order. -/
theorem fold_max_four (f : Fin 4 → EReal) :
    (Finset.univ : Finset (Fin 4)).fold max ⊥ f = max (max (max (f 0) (f 1)) (f 2)) (f 3) := by
  refine eq_of_forall_ge_iff fun c => ?_
  rw [Finset.fold_max_le]
  simp only [Finset.mem_univ, true_implies, max_le_iff, Fin.forall_fin_succ, IsEmpty.forall_iff, bot_le, true_and,
    and_true, and_assoc]
  exact Iff.rfl

end Cert.HeadPool

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«137346_j32753420599330_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibColumnLayouts.lean ====
import Idealize.ShloMosaic.Lib.Pipeline.Value
import Idealize.ShloMosaic.Lib.ValueIdx

/-
  Layout changes around a row-wise reduction, read at an index (for any element type and any extents):

  * slab_as_rows   — a [1, n, 1, w] slab read as an [n, w] matrix: entry (r, d) is the slab's (0, r, 0, d);
  * rows_as_slab   — an [n, w] matrix read as a [1, n, 1, w] slab;
  * vec_as_column  — a length-n vector read as an [n, 1] column (what keeping the reduced axis does to a row-wise
                     reduction's result);
  * column_spread  — an [n, 1] column spread over b columns: entry (r, t) is the column's (r, 0).
-/

namespace Cert.LibColumnLayouts

open Idealize.ShloMosaic Idealize.ShloMosaic.ValueIdx

variable {α : Type}

/-- A [1, n, 1, w] slab read as [n, w]: entry (r, d) is the slab's (0, r, 0, d). -/
theorem slab_as_rows {n w : ℕ} (x : (⟨4, ![1, n, 1, w]⟩ : Shape).Idx → α)
    (h : (⟨4, ![1, n, 1, w]⟩ : Shape).ShapeCasts ⟨2, ![n, w]⟩) (r : Fin n) (d : Fin w) :
    shapeCast ⟨2, ![n, w]⟩ x h (ix2 r d) = x (ix4 (0 : Fin 1) r (0 : Fin 1) d) :=
  shapeCast_apply x h _ _ (by
    rw [Shape.rowMajor_val_four, Shape.rowMajor_val_two]
    show ((0 * n + r.val) * 1 + 0) * w + d.val = r.val * w + d.val
    rw [Nat.zero_mul, Nat.zero_add, Nat.mul_one, Nat.add_zero])

/-- [n, w] rows read as a [1, n, 1, w] slab: entry (u, r, v, d) is the matrix's (r, d). -/
theorem rows_as_slab {n w : ℕ} (x : (⟨2, ![n, w]⟩ : Shape).Idx → α)
    (h : (⟨2, ![n, w]⟩ : Shape).ShapeCasts ⟨4, ![1, n, 1, w]⟩) (u : Fin 1) (r : Fin n) (v : Fin 1) (d : Fin w) :
    shapeCast ⟨4, ![1, n, 1, w]⟩ x h (ix4 u r v d) = x (ix2 r d) :=
  shapeCast_apply x h _ _ (by
    rw [Shape.rowMajor_val_four, Shape.rowMajor_val_two]
    show r.val * w + d.val = ((u.val * n + r.val) * 1 + v.val) * w + d.val
    have hu : u.val = 0 := by omega
    have hv : v.val = 0 := by omega
    rw [hu, hv, Nat.zero_mul, Nat.zero_add, Nat.mul_one, Nat.add_zero])

/-- A length-n vector read as an [n, 1] column: entry (r, u) is the vector's r. -/
theorem vec_as_column {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    rw [Shape.rowMajor_val_two, Shape.rowMajor_val_one]
    show r.val = r.val * 1 + u.val
    have hu : u.val = 0 := by omega
    rw [hu, Nat.mul_one, Nat.add_zero])

/-- An [n, 1] column spread over b columns (n ≠ 1): entry (r, t) is the column's (r, 0). -/
theorem column_spread {n b : ℕ} (hb : b ≠ 1) (x : (⟨2, ![n, 1]⟩ : Shape).Idx → α) (h : (⟨2, ![n, 1]⟩ : Shape).Broadcasts ⟨2, ![n, b]⟩)
    (hn : n ≠ 1) (r : Fin n) (t : Fin b) : broadcastTo ⟨2, ![n, b]⟩ x h (ix2 r t) = x (ix2 r (0 : Fin 1)) := by
  refine broadcastTo_apply x h (ix2 r t) (ix2 r (0 : Fin 1)) fun a => ?_
  match a with
  | ⟨0, _⟩ =>
    show r.val = if n = 1 then 0 else r.val
    rw [if_neg hn]
  | ⟨1, _⟩ => rfl

end Cert.LibColumnLayouts
-- ==== Proof.KernelPayload.lean ====
/-
  The kernel body's arithmetic, read one entry at a time on the extended reals.

  The body holds a tile of 512 rows.  From the tile of the first input (xd, 1024 columns) and of the second (xo, 512
  columns) it forms the query and key tiles  Q = xo * wq + bq  and  K = xd * wk + bk  (both 512 columns), and then, head
  by head, the score column  s h = sum over 128 columns of Q * K  restricted to the head's columns, the value tile
  V h = xd * (the head's 1024 columns of wv) + (the head's 1024 entries of bv), and the product  s h * V h; it keeps the
  running entrywise maximum of the four products.  Row p, column d of what it stores therefore depends on row p of xd
  and of xo only.  The narrowing of a tile to sixteen bits is the identity on extended reals, a reshape to the
  same shape is the identity, a product into a zero accumulator is the plain sum of products, and a lane sum from zero
  is the plain sum.
-/
import proofs.«137346_j32753420599330_2_alg».proof.Proof.Gen.KernelIdeal.Skeleton
import proofs.«137346_j32753420599330_2_alg».proof.Proof.HeadPoolSpec
import proofs.«137346_j32753420599330_2_alg».proof.Proof.LibRowReduceProducts
import proofs.«137346_j32753420599330_2_alg».proof.Proof.LibColumnLayouts
import Idealize.ShloMosaic.Lib.Pipeline.Value
import Idealize.ShloMosaic.Lib.ValueIdx
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert.HeadPool

/-! ## Generic pieces -/

/-- A length-b vector laid as a [1, b] row and repeated down a rows: entry (p, j) is the vector's j. -/
theorem biasRow_apply {a b : ℕ} (hb : b ≠ 1) (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (p : Fin a) (j : Fin b) :
    broadcastTo ⟨2, ![a, b]⟩ (shapeCast ⟨2, ![1, b]⟩ v h1) h2 (ix2 p j) = v (ix1 j) := by
  refine (broadcastTo_apply _ h2 (ix2 p j) (ix2 (0 : Fin 1) j) fun c => ?_).trans ?_
  · match c with
    | ⟨0, _⟩ => rfl
    | ⟨1, _⟩ =>
      show j.val = if b = 1 then 0 else j.val
      rw [if_neg hb]
  · refine shapeCast_apply v h1 _ (ix1 j) ?_
    rw [Shape.rowMajor_val_one, Shape.rowMajor_val_two]
    show j.val = 0 * b + j.val
    rw [Nat.zero_mul, Nat.zero_add]

/-- A tile times a weight matrix into a zero accumulator, plus a bias vector repeated down the rows: entry (p, j) is the
    affine map of row p of the tile at column j. -/
theorem affineTile_apply {M K N : ℕ} (hN : N ≠ 1) {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![M, K]⟩ φ₁) (w : FVec Ideal ⟨2, ![K, N]⟩ φ₂) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (p : Fin M) (j : Fin N) :
    addf (matmul D none x w (constant ⟨2, ![M, N]⟩ .f32 0x00000000#32))
        (broadcastTo ⟨2, ![M, N]⟩ (shapeCast ⟨2, ![1, N]⟩ b h1) h2) (ix2 p j)
      = proj (fun r => x (ix2 p r)) w b j := by
  show FloatOps.matmul D none x w (constant ⟨2, ![M, N]⟩ .f32 0x00000000#32) (ix2 p j)
      + broadcastTo ⟨2, ![M, N]⟩ (shapeCast ⟨2, ![1, N]⟩ b h1) h2 (ix2 p j) = _
  rw [Cert.LibRowReduceProducts.matmulNN D hlc hrc hln hrn hlb hrb none x w p j, biasRow_apply hN b h1 h2 p j]
  rfl

/-- The score column of one head: the 128 columns from `off` of the query and key tiles multiplied entrywise, summed
    along each row from zero and kept as a one-column tile.  Row p of it is the inner product over those columns. -/
theorem scoreColumn_apply {a : ℕ} (off : ℕ) (col : Fin 128 → Fin 512) (hcol : ∀ c, (col c).val = off + c.val)
    (Q Kt : FVec Ideal ⟨2, ![a, 512]⟩ .f32)
    (hs : (⟨2, ![a, 512]⟩ : Shape).Slices ![0, off] ⟨2, ![a, 128]⟩)
    (hr : Shape.Reduces ⟨2, ![a, 128]⟩ [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩
        (mulf (extractStridedSlice ⟨2, ![a, 128]⟩ ![0, off] Q hs) (extractStridedSlice ⟨2, ![a, 128]⟩ ![0, off] Kt hs))
        0x00000000#32 hr hφ hacc) hc (ix2 p u)
      = ∑ c : Fin 128, Q (ix2 p (col c)) * Kt (ix2 p (col c)) := by
  refine (Cert.LibColumnLayouts.vec_as_column _ hc p u).trans ?_
  refine (Cert.LibRowReduceProducts.rowSum_apply _ hr hφ hacc p).trans ?_
  refine Finset.sum_congr rfl fun c _ => ?_
  have e : ∀ X : FVec Ideal ⟨2, ![a, 512]⟩ .f32,
      extractStridedSlice ⟨2, ![a, 128]⟩ ![0, off] X hs (ix2 p c) = X (ix2 p (col c)) := fun X =>
    extractStridedSlice_apply _ X hs (ix2 p c) (ix2 p (col c)) fun d => by
      match d with
      | ⟨0, _⟩ => show p.val = 0 + p.val; rw [Nat.zero_add]
      | ⟨1, _⟩ => exact hcol c
  show extractStridedSlice ⟨2, ![a, 128]⟩ ![0, off] Q hs (ix2 p c) * extractStridedSlice ⟨2, ![a, 128]⟩ ![0, off] Kt hs (ix2 p c) = _
  rw [e Q, e Kt]

/-- A score column spread over the value tile's columns and multiplied with the value tile (a tile times a weight
    block into zero, plus a bias repeated down the rows): entry (p, d) is the score of row p times the affine map of
    row p at column d. -/
theorem scaledValue_apply {a K N : ℕ} (ha : a ≠ 1) (hN : N ≠ 1) {φ₁ φ₂ : FTy}
    (D : DotDims ⟨2, ![a, K]⟩ ⟨2, ![K, N]⟩ ⟨2, ![a, N]⟩)
    (hlc : D.lhsContracting = [1]) (hrc : D.rhsContracting = [0]) (hln : D.lhsNonContracting = [0])
    (hrn : D.rhsNonContracting = [1]) (hlb : D.lhsBatch = []) (hrb : D.rhsBatch = [])
    (s : FVec Ideal ⟨2, ![a, 1]⟩ .f32) (hbs : (⟨2, ![a, 1]⟩ : Shape).Broadcasts ⟨2, ![a, N]⟩)
    (x : FVec Ideal ⟨2, ![a, K]⟩ φ₁) (w : FVec Ideal ⟨2, ![K, N]⟩ φ₂) (b : FVec Ideal ⟨1, ![N]⟩ .f32)
    (h1 : (⟨1, ![N]⟩ : Shape).ShapeCasts ⟨2, ![1, N]⟩) (h2 : (⟨2, ![1, N]⟩ : Shape).Broadcasts ⟨2, ![a, N]⟩)
    (p : Fin a) (d : Fin N) :
    mulf (broadcastTo ⟨2, ![a, N]⟩ s hbs)
        (addf (matmul D none x w (constant ⟨2, ![a, N]⟩ .f32 0x00000000#32))
          (broadcastTo ⟨2, ![a, N]⟩ (shapeCast ⟨2, ![1, N]⟩ b h1) h2)) (ix2 p d)
      = s (ix2 p (0 : Fin 1)) * proj (fun r => x (ix2 p r)) w b d := by
  show broadcastTo ⟨2, ![a, N]⟩ s hbs (ix2 p d)
      * addf (matmul D none x w (constant ⟨2, ![a, N]⟩ .f32 0x00000000#32))
          (broadcastTo ⟨2, ![a, N]⟩ (shapeCast ⟨2, ![1, N]⟩ b h1) h2) (ix2 p d) = _
  rw [Cert.LibColumnLayouts.column_spread hN s hbs ha p d, affineTile_apply hN D hlc hrc hln hrn hlb hrb x w b h1 h2 p d]

/-! ## The body's named values -/

/-- The query tile: entry (p, j) is the affine map of row p of the second input's tile at column j. -/
theorem queryTile_apply (v2 : Vec Ideal S512x512 .f32) (v4 : Vec Ideal S512x512 .bf16) (v7 : Vec Ideal S512 .f32)
    (p j : Fin 512) :
    k0_pay3 (F := Ideal) v2 v4 v7 (ix2 p j) = proj (fun r => v2 (ix2 p r)) v4 v7 j := by
  unfold k0_pay3
  simp only [shapeCast_self]
  exact affineTile_apply (by decide) dot_S512x512_S512x512_S512x512_1_0_0_1_n_n rfl rfl rfl rfl rfl rfl _ v4 v7 _ _ p j

/-- The key tile: entry (p, j) is the affine map of row p of the first input's tile at column j. -/
theorem keyTile_apply (v0 : Vec Ideal S512x1024 .f32) (v11 : Vec Ideal S1024x512 .bf16) (v14 : Vec Ideal S512 .f32)
    (p j : Fin 512) :
    k0_pay4 (F := Ideal) v0 v11 v14 (ix2 p j) = proj (fun r => v0 (ix2 p r)) v11 v14 j := by
  unfold k0_pay4 k0_pay2
  simp only [shapeCast_self]
  exact affineTile_apply (by decide) dot_S512x1024_S1024x512_S512x512_1_0_0_1_n_n rfl rfl rfl rfl rfl rfl _ v11 v14 _ _ p j

/-- A head's score from the query and key tiles is the head's score of the two rows. -/
theorem score_of_tiles (h : Fin 4) (v0 : Vec Ideal S512x1024 .f32) (v2 : Vec Ideal S512x512 .f32)
    (v4 : Vec Ideal S512x512 .bf16) (v7 : Vec Ideal S512 .f32) (v11 : Vec Ideal S1024x512 .bf16) (v14 : Vec Ideal S512 .f32)
    (p : Fin 512) :
    (∑ c : Fin 128, k0_pay3 (F := Ideal) v2 v4 v7 (ix2 p (headCol h c)) * k0_pay4 (F := Ideal) v0 v11 v14 (ix2 p (headCol h c)))
      = headScore (fun r => v0 (ix2 p r)) (fun r => v2 (ix2 p r)) v4 v7 v11 v14 h :=
  Finset.sum_congr rfl fun c _ => by rw [queryTile_apply, keyTile_apply]

/-- The first head's product: its score times its value tile, where the value tile is built from the head's block of
    the value weights and of the value bias. -/
theorem firstHead_apply (v0 : Vec Ideal S512x1024 .f32) (v2 : Vec Ideal S512x512 .f32) (v4 : Vec Ideal S512x512 .bf16)
    (v7 : Vec Ideal S512 .f32) (v11 : Vec Ideal S1024x512 .bf16) (v14 : Vec Ideal S512 .f32)
    (v23 : Vec Ideal S1024x1024 .bf16) (v25 : Vec Ideal S1024 .f32) (p : Fin 512) (d : Fin 1024) :
    k0_pay5 (F := Ideal) v0 v2 v4 v7 v11 v14 v23 v25 (ix2 p d)
      = headScore (fun r => v0 (ix2 p r)) (fun r => v2 (ix2 p r)) v4 v7 v11 v14 0
          * proj (fun r => v0 (ix2 p r)) v23 v25 d := by
  unfold k0_pay5
  simp only [shapeCast_self]
  refine (scaledValue_apply (by decide) (by decide) dot_S512x1024_S1024x1024_S512x1024_1_0_0_1_n_n rfl rfl rfl rfl rfl rfl
    _ _ (k0_pay2 v0) v23 v25 _ _ p d).trans ?_
  refine congrArg₂ (· * ·) ?_ rfl
  refine (scoreColumn_apply 0 (headCol 0) (fun c => by show 128 * 0 + c.val = 0 + c.val; omega) _ _ _ _ _ _ _ p 0).trans ?_
  exact score_of_tiles 0 v0 v2 v4 v7 v11 v14 p

/-- The second head's score column. -/
theorem secondScore_apply (v0 : Vec Ideal S512x1024 .f32) (v2 : Vec Ideal S512x512 .f32) (v4 : Vec Ideal S512x512 .bf16)
    (v7 : Vec Ideal S512 .f32) (v11 : Vec Ideal S1024x512 .bf16) (v14 : Vec Ideal S512 .f32) (p : Fin 512) (u : Fin 1) :
    k0_pay6 (F := Ideal) v0 v2 v4 v7 v11 v14 (ix2 p u)
      = headScore (fun r => v0 (ix2 p r)) (fun r => v2 (ix2 p r)) v4 v7 v11 v14 1 := by
  unfold k0_pay6
  refine (scoreColumn_apply 128 (headCol 1) (fun c => by show 128 * 1 + c.val = 128 + c.val; omega) _ _ _ _ _ _ _ p u).trans ?_
  exact score_of_tiles 1 v0 v2 v4 v7 v11 v14 p

/-- What the body stores: the running maximum of the four heads' products, the first given whole, the second from its
    score column, the last two from the query and key tiles. -/
theorem stored_apply (v1 : FVec Ideal S512x1024 .bf16) (v10 v17 : FVec Ideal S512x512 .f32) (v31 : FVec Ideal S512x1024 .f32)
    (v36 : FVec Ideal S512x1 .f32) (v38 : FVec Ideal S1024x1024 .bf16) (v39 : Vec Ideal S1024 .f32)
    (v52 : Vec Ideal S1024x1024 .bf16) (v54 : Vec Ideal S1024 .f32) (v67 : Vec Ideal S1024x1024 .bf16)
    (v69 : Vec Ideal S1024 .f32) (p : Fin 512) (d : Fin 1024) :
    k0_pay1 (F := Ideal) v1 v10 v17 v31 v36 v38 v39 v52 v54 v67 v69 (ix2 p d)
      = max (max (max (v31 (ix2 p d)) (v36 (ix2 p (0 : Fin 1)) * proj (fun r => v1 (ix2 p r)) v38 v39 d))
          ((∑ c : Fin 128, v10 (ix2 p (headCol 2 c)) * v17 (ix2 p (headCol 2 c))) * proj (fun r => v1 (ix2 p r)) v52 v54 d))
          ((∑ c : Fin 128, v10 (ix2 p (headCol 3 c)) * v17 (ix2 p (headCol 3 c))) * proj (fun r => v1 (ix2 p r)) v67 v69 d) := by
  unfold k0_pay1
  simp only [shapeCast_self]
  refine congrArg₂ max (congrArg₂ max (congrArg₂ max rfl ?_) ?_) ?_
  · exact scaledValue_apply (by decide) (by decide) dot_S512x1024_S1024x1024_S512x1024_1_0_0_1_n_n rfl rfl rfl rfl rfl rfl
      v36 _ v1 v38 v39 _ _ p d
  · refine (scaledValue_apply (by decide) (by decide) dot_S512x1024_S1024x1024_S512x1024_1_0_0_1_n_n rfl rfl rfl rfl rfl rfl
      _ _ v1 v52 v54 _ _ p d).trans ?_
    refine congrArg₂ (· * ·) ?_ rfl
    exact scoreColumn_apply 256 (headCol 2) (fun c => by show 128 * 2 + c.val = 256 + c.val; omega) v10 v17 _ _ _ _ _ p 0
  · refine (scaledValue_apply (by decide) (by decide) dot_S512x1024_S1024x1024_S512x1024_1_0_0_1_n_n rfl rfl rfl rfl rfl rfl
      _ _ v1 v67 v69 _ _ p d).trans ?_
    refine congrArg₂ (· * ·) ?_ rfl
    exact scoreColumn_apply 384 (headCol 3) (fun c => by show 128 * 3 + c.val = 384 + c.val; omega) v10 v17 _ _ _ _ _ p 0

end Cert.KernelIdeal.Rows

end
-- ==== Proof.KernelTile.lean ====
/-
  What the kernel body leaves in its output tile, entry by entry: row p of the tile is the row-wise function
  (HeadPoolSpec) of row p of the two input tiles and of the whole weights and biases.

  The body reads the value weights and the value bias one head at a time: head h's block is columns
  1024 h ... 1024 h + 1023 of the weights and entries 1024 h ... 1024 h + 1023 of the bias, so the affine map built
  from the block, at column d, is the affine map built from the whole weights at column 1024 h + d.
-/
import proofs.«137346_j32753420599330_2_alg».proof.Proof.Gen.KernelIdeal.Frame
import proofs.«137346_j32753420599330_2_alg».proof.Proof.KernelPayload

noncomputable section

open scoped BigOperators

namespace Cert.KernelIdeal.Rows

open Cert.KernelIdeal Cert.KernelIdeal.Gen Idealize.ShloMosaic Idealize.ShloMosaic.ValueIdx Cert.HeadPool

theorem zeros2 : (![0, 0] : Fin 2 → Nat) = fun _ => 0 := funext fun a => by fin_cases a <;> rfl
theorem zeros1 : (![0] : Fin 1 → Nat) = fun _ => 0 := funext fun a => by fin_cases a <;> rfl

/-- The affine map of a row built from the block of 1024 columns starting at `off` of the weights and of the bias is,
    at column d of the block, the affine map built from the whole weights and bias at column `off + d`. -/
theorem proj_columns (off : ℕ) (col : Fin 1024 → Fin 4096) (hcol : ∀ d, (col d).val = off + d.val)
    (x : Fin 1024 → EReal) (w : Vec Ideal S1024x4096 .bf16) (b : Vec Ideal S4096 .f32)
    (inbw : ∀ a, (![0, off] : Fin 2 → Nat) a + S1024x1024.size a ≤ S1024x4096.size a)
    (inbb : ∀ a, (![off] : Fin 1 → Nat) a + S1024.size a ≤ S4096.size a) (d : Fin 1024) :
    proj x (View.ld w (Rect.unit (s := S1024x4096) ![0, off] S1024x1024.size inbw) : S1024x1024.Idx → EReal)
        (View.ld b (Rect.unit (s := S4096) ![off] S1024.size inbb) : S1024.Idx → EReal) d
      = proj x w b (col d) := by
  unfold proj
  refine congrArg₂ (· + ·) (Finset.sum_congr rfl fun r _ => congrArg (x r * ·) (congrArg w ?_)) (congrArg b ?_)
  · exact funext fun a => Fin.ext (by
      match a with
      | ⟨0, _⟩ => show 0 + 1 * r.val = r.val; omega
      | ⟨1, _⟩ => show off + 1 * d.val = (col d).val; rw [hcol d]; omega)
  · exact funext fun a => Fin.ext (by
      match a with
      | ⟨0, _⟩ => show off + 1 * d.val = (col d).val; rw [hcol d]; omega)

/-- Entry (p, d) of the output tile after the body. -/
theorem tile_apply (x0 : Vec Ideal S512x1024 .f32) (x1 : Vec Ideal S512x512 .f32) (x2 : Vec Ideal S512x512 .bf16)
    (x3 : Vec Ideal S512 .f32) (x4 : Vec Ideal S1024x512 .bf16) (x5 : Vec Ideal S512 .f32) (x6 : Vec Ideal S1024x4096 .bf16)
    (x7 : Vec Ideal S4096 .f32) (p : Fin 512) (d : Fin 1024) :
    out0_8 (F := Ideal) x0 x1 x2 x3 x4 x5 x6 x7 (ix2 p d)
      = rowOut (fun r => x0 (ix2 p r)) (fun r => x1 (ix2 p r)) x2 x3 x4 x5 x6 x7 d := by
  unfold out0_8
  rw [View.canon_unit_zero zeros2]
  simp only [View.ld_unit_zero (S := S512x1024) zeros2, View.ld_unit_zero (S := S512x512) zeros2,
    View.ld_unit_zero (S := S1024x512) zeros2, View.ld_unit_zero (S := S512) zeros1, k0_pay7, shapeCast_self]
  rw [stored_apply, firstHead_apply, secondScore_apply, score_of_tiles 2, score_of_tiles 3]
  unfold rowOut headTerm
  refine congrArg₂ max (congrArg₂ max (congrArg₂ max (congrArg₂ (· * ·) rfl ?_) (congrArg₂ (· * ·) rfl ?_))
    (congrArg₂ (· * ·) rfl ?_)) (congrArg₂ (· * ·) rfl ?_)
  · exact proj_columns 0 (valueCol 0) (fun e => by show 1024 * 0 + e.val = 0 + e.val; omega) _ x6 x7 _ _ d
  · exact proj_columns 1024 (valueCol 1) (fun e => by show 1024 * 1 + e.val = 1024 + e.val; omega) _ x6 x7 _ _ d
  · exact proj_columns 2048 (valueCol 2) (fun e => by show 1024 * 2 + e.val = 2048 + e.val; omega) _ x6 x7 _ _ d
  · exact proj_columns 3072 (valueCol 3) (fun e => by show 1024 * 3 + e.val = 3072 + e.val; omega) _ x6 x7 _ _ d

end Cert.KernelIdeal.Rows

end
-- ==== Proof.KernelArray.lean ====
/-
  From tiles to the whole result array.

  The grid has 64 points; point t works on rows 512 t ... 512 t + 511: its tiles of the two row inputs and of the
  result are those rows (all columns), and its tiles of the weights and biases are the whole arrays.  The weights
  reach the kernel through a narrowing to sixteen bits done before the call, which is the identity on extended reals, so
  the kernel finds the weight arguments themselves.  Hence what point t writes back is rows 512 t ... 512 t + 511 of
  the row-wise function of the arguments (HeadPoolSpec `pooled`); the 64 row blocks cover the array (row i lies in
  block i / 512), so the array ends holding that function.
-/
import proofs.«137346_j32753420599330_2_alg».proof.Proof.Gen.KernelIdeal.Value
import proofs.«137346_j32753420599330_2_alg».proof.Proof.KernelTile
import Idealize.ShloMosaic.Lib.StableHlo.Run

noncomputable section

open scoped BigOperators

namespace Cert.KernelIdeal.Rows

open Cert.KernelIdeal Cert.KernelIdeal.Gen Cert.KernelIdeal.Value Idealize.ShloMosaic Idealize.ShloMosaic.TcCoe
  Idealize.ShloMosaic.ValueIdx Idealize.SL.Sem Cert.HeadPool
open Idealize.ShloMosaic.Pipeline (Dat)

variable (m : (ℓ : Loc nD τ sig) → Buf (Elt Ideal) ℓ) (ρ : Dev nD → PrngReg)

/-- The row-wise function of the argument arrays as launched. -/
abbrev pooledOf (c : Dev nD) : S32768x1024.Idx → EReal :=
  pooled (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The weights the kernel finds are the arguments -/

theorem found_wq (c : Dev nD) : (V m c main_v0 : S512x512.Idx → EReal) = m ((c : Thread nD τ).loc main_arg2) := by
  dsimp only [Gen.V, Gen.hostOps0]; after_results; rfl
theorem found_wk (c : Dev nD) : (V m c main_v1 : S1024x512.Idx → EReal) = m ((c : Thread nD τ).loc main_arg4) := by
  dsimp only [Gen.V, Gen.hostOps0]; after_results; rfl
theorem found_wv (c : Dev nD) : (V m c main_v2 : S1024x4096.Idx → EReal) = m ((c : Thread nD τ).loc main_arg6) := by
  dsimp only [Gen.V, Gen.hostOps0]; after_results; rfl

/-! ## The index maps, decided over the grid -/

theorem block_indices : ∀ t : Fin cfg0.N, win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-- Row p of point t's tiles is row 512 t + p of the arrays. -/
abbrev rowOf (t : Fin cfg0.N) (p : Fin 512) : Fin 32768 :=
  ⟨t.val * 512 + p.val, by have := t.isLt; have hN : cfg0.N = 64 := N_0; have := p.isLt; omega⟩

/-! ## The input tiles at a point -/

theorem tile_xd (c : Dev nD) (t : Fin cfg0.N) (p : Fin 512) (r : Fin 1024) :
    (iblk m c 0 t : Vec Ideal S512x1024 .f32) (ix2 p r) = m ((c : Thread nD τ).loc main_arg0) (ix2 (rowOf t p) r) := by
  obtain ⟨-, -, e0, e1, -⟩ := block_indices t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 1024 + 1 * r.val = r.val; rw [e1]; omega

theorem tile_xo (c : Dev nD) (t : Fin cfg0.N) (p : Fin 512) (r : Fin 512) :
    (iblk m c 1 t : Vec Ideal S512x512 .f32) (ix2 p r) = m ((c : Thread nD τ).loc main_arg1) (ix2 (rowOf t p) r) := by
  obtain ⟨-, -, -, -, e0, e1, -⟩ := block_indices t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 512 + 1 * p.val = t.val * 512 + p.val; rw [e0]; omega
  | ⟨1, _⟩ => show win0_1.index t (1 : Fin 2) * 512 + 1 * r.val = r.val; rw [e1]; omega

theorem tile_wq (c : Dev nD) (t : Fin cfg0.N) :
    (iblk m c 2 t : Vec Ideal S512x512 .bf16) = m ((c : Thread nD τ).loc main_arg2) := by
  obtain ⟨-, -, -, -, -, -, e0, e1, -⟩ := block_indices t
  funext y
  unfold iblk
  rw [View.read_apply]
  show V m c main_v0 _ = _
  rw [found_wq]
  refine congrArg (m ((c : Thread nD τ).loc main_arg2)) (funext fun a => Fin.ext ?_)
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

theorem tile_bq (c : Dev nD) (t : Fin cfg0.N) :
    (iblk m c 3 t : Vec Ideal S512 .f32) = m ((c : Thread nD τ).loc main_arg3) := by
  obtain ⟨-, -, -, -, -, -, -, -, e0, -⟩ := block_indices t
  funext y
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 1) * 512 + 1 * (y 0).val = (y 0).val; rw [e0]; omega

theorem tile_wk (c : Dev nD) (t : Fin cfg0.N) :
    (iblk m c 4 t : Vec Ideal S1024x512 .bf16) = m ((c : Thread nD τ).loc main_arg4) := by
  obtain ⟨-, -, -, -, -, -, -, -, -, e0, e1, -⟩ := block_indices t
  funext y
  unfold iblk
  rw [View.read_apply]
  show V m c main_v1 _ = _
  rw [found_wk]
  refine congrArg (m ((c : Thread nD τ).loc main_arg4)) (funext fun a => Fin.ext ?_)
  match a with
  | ⟨0, _⟩ => show win0_4.index t (0 : Fin 2) * 1024 + 1 * (y 0).val = (y 0).val; rw [e0]; omega
  | ⟨1, _⟩ => show win0_4.index t (1 : Fin 2) * 512 + 1 * (y 1).val = (y 1).val; rw [e1]; omega

theorem tile_bk (c : Dev nD) (t : Fin cfg0.N) :
    (iblk m c 5 t : Vec Ideal S512 .f32) = m ((c : Thread nD τ).loc main_arg5) := by
  obtain ⟨-, -, -, -, -, -, -, -, -, -, -, e0, -⟩ := block_indices t
  funext y
  unfold iblk
  rw [View.read_apply]
  show V m c main_arg5 _ = _
  rw [V_main_arg5]
  refine congrArg (m ((c : Thread nD τ).loc main_arg5)) (funext fun a => Fin.ext ?_)
  match a with
  | ⟨0, _⟩ => show win0_5.index t (0 : Fin 1) * 512 + 1 * (y 0).val = (y 0).val; rw [e0]; omega

theorem tile_wv (c : Dev nD) (t : Fin cfg0.N) :
    (iblk m c 6 t : Vec Ideal S1024x4096 .bf16) = m ((c : Thread nD τ).loc main_arg6) := by
  obtain ⟨-, -, -, -, -, -, -, -, -, -, -, -, e0, e1, -⟩ := block_indices t
  funext y
  unfold iblk
  rw [View.read_apply]
  show V m c main_v2 _ = _
  rw [found_wv]
  refine congrArg (m ((c : Thread nD τ).loc main_arg6)) (funext fun a => Fin.ext ?_)
  match a with
  | ⟨0, _⟩ => show win0_6.index t (0 : Fin 2) * 1024 + 1 * (y 0).val = (y 0).val; rw [e0]; omega
  | ⟨1, _⟩ => show win0_6.index t (1 : Fin 2) * 4096 + 1 * (y 1).val = (y 1).val; rw [e1]; omega

theorem tile_bv (c : Dev nD) (t : Fin cfg0.N) :
    (iblk m c 7 t : Vec Ideal S4096 .f32) = m ((c : Thread nD τ).loc main_arg7) := by
  obtain ⟨-, -, -, -, -, -, -, -, -, -, -, -, -, -, e0⟩ := block_indices t
  funext y
  unfold iblk
  rw [View.read_apply]
  show V m c main_arg7 _ = _
  rw [V_main_arg7]
  refine congrArg (m ((c : Thread nD τ).loc main_arg7)) (funext fun a => Fin.ext ?_)
  match a with
  | ⟨0, _⟩ => show win0_7.index t (0 : Fin 1) * 4096 + 1 * (y 0).val = (y 0).val; rw [e0]; omega

/-! ## What a point writes back, the cover, the array after the run -/

/-- Point t writes back rows 512 t ... 512 t + 511 of the row-wise function of the arguments. -/
theorem flushed_eq (c : Dev nD) (t : Fin cfg0.N) :
    (dats m 0 c).flushed 8 t = ((cfg0.win 8).blk t).view.read (Elt Ideal) (pooledOf m c) := by
  rw [flushed8]
  obtain ⟨e0, e1, -⟩ := block_indices t
  funext y
  obtain ⟨p, d, rfl⟩ : ∃ (p : Fin 512) (d : Fin 1024), y = ix2 p d := ⟨y 0, y 1, eq_ix2 y⟩
  have hemb : ((cfg0.win 8).blk t).view.emb (ix2 p d) = ix2 (rowOf t p) d := funext fun a => Fin.ext (by
    match a with
    | ⟨0, _⟩ => show win0_8.index t (0 : Fin 2) * 512 + 1 * p.val = t.val * 512 + p.val; rw [e0]; omega
    | ⟨1, _⟩ => show win0_8.index t (1 : Fin 2) * 1024 + 1 * d.val = d.val; rw [e1]; omega)
  show out0_8 (iblk m c 0 t) (iblk m c 1 t) (iblk m c 2 t) (iblk m c 3 t) (iblk m c 4 t) (iblk m c 5 t) (iblk m c 6 t)
      (iblk m c 7 t) (ix2 p d) = pooledOf m c (((cfg0.win 8).blk t).view.emb (ix2 p d))
  rw [hemb]
  refine (tile_apply (iblk m c 0 t) (iblk m c 1 t) (iblk m c 2 t) (iblk m c 3 t) (iblk m c 4 t) (iblk m c 5 t)
    (iblk m c 6 t) (iblk m c 7 t) p d).trans ?_
  have exd : (fun r => (iblk m c 0 t : Vec Ideal S512x1024 .f32) (ix2 p r))
      = fun r => m ((c : Thread nD τ).loc main_arg0) (ix2 (rowOf t p) r) := funext fun r => tile_xd m c t p r
  have exo : (fun r => (iblk m c 1 t : Vec Ideal S512x512 .f32) (ix2 p r))
      = fun r => m ((c : Thread nD τ).loc main_arg1) (ix2 (rowOf t p) r) := funext fun r => tile_xo m c t p r
  rw [exd, exo, tile_wq, tile_bq, tile_wk, tile_bk, tile_wv, tile_bv]
  rfl

/-- An index of the array is in point t's block iff each coordinate is in the block's range on its axis. -/
theorem mem_block (t : Fin cfg0.N) (i : S32768x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v3).slice (win0_8.rect t)).set ↔ _
  rw [View.set_slice_whole, Rect.mem_set_unit]
  exact Iff.rfl

/-- Every index of the array is in some point's block: row i is in block i / 512. -/
theorem covered (i : S32768x1024.Idx) :
    ∃ t : Fin cfg0.N, (cfg0.win 8).flush t = true ∧ i ∈ ((cfg0.win 8).blk t).view.set := by
  have hi0 : (i 0).val < 32768 := (i 0).isLt
  have hi1 : (i 1).val < 1024 := (i 1).isLt
  have hN : cfg0.N = 64 := N_0
  refine ⟨⟨(i 0).val / 512, by omega⟩, flush0_8 _, ?_⟩
  obtain ⟨e0, e1, -⟩ := block_indices ⟨(i 0).val / 512, by omega⟩
  rw [mem_block]
  intro a
  match a with
  | ⟨0, _⟩ =>
    show win0_8.index _ (0 : Fin 2) * 512 ≤ (i 0).val ∧ (i 0).val < win0_8.index _ (0 : Fin 2) * 512 + 512
    rw [e0]; show (i 0).val / 512 * 512 ≤ (i 0).val ∧ (i 0).val < (i 0).val / 512 * 512 + 512; omega
  | ⟨1, _⟩ =>
    show win0_8.index _ (1 : Fin 2) * 1024 ≤ (i 1).val ∧ (i 1).val < win0_8.index _ (1 : Fin 2) * 1024 + 1024
    rw [e1]; omega

/-- The result array after the run is the row-wise function of the arguments. -/
theorem final (c : Dev nD) : (dats m 0 c).arrAt 8 cfg0.N = pooledOf m c :=
  (dats m 0 c).arrAt_eq_of_cover 8 (pooledOf m c) (fun t _ => flushed_eq m c t) covered

/-- The kernel's run: the result array ends holding the row-wise function of the arguments, the arguments unchanged. -/
theorem run : θ_run defs (onTc (τ := τ) (main (F := Ideal))) ⟨m, fun _ => 0, ρ⟩ fun r => ∀ c : Dev nD,
      r.2.mem ((c : Thread nD τ).loc main_v3) = pooledOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Rows

end
-- ==== Proof.ReferenceRows.lean ====
/-
  The reference, read one entry at a time on the extended reals, is the row-wise function of HeadPoolSpec.

  The reference forms the three affine maps of the whole inputs, views the 512 query and key columns as 4 heads of 128
  and the 4096 value columns as 4 heads of 1024 (a reshape: flat column 128 h + c, respectively 1024 h + d, of row n
  is entry (n, h, c), respectively (n, h, d)), sums the 128 products of a head from zero, multiplies the sum into the
  head's value entries and takes the maximum over the 4 heads starting from minus infinity.  Since the maximum with
  minus infinity changes nothing, the fold over the four heads is the nested maximum of the four products.
-/
import proofs.«137346_j32753420599330_2_alg».proof.Proof.Gen.ReferenceIdeal.Read
import proofs.«137346_j32753420599330_2_alg».proof.Proof.HeadPoolSpec
import proofs.«137346_j32753420599330_2_alg».proof.Proof.LibPayOps
import Idealize.ShloMosaic.Lib.Pipeline.Value
import Idealize.ShloMosaic.Lib.ValueIdx
import Idealize.ShloMosaic.PureOps.Ideal.Laws

noncomputable section

open scoped BigOperators

namespace Cert.ReferenceIdeal.Rows

open Cert.ReferenceIdeal Cert.ReferenceIdeal.Gen Cert.ReferenceIdeal.Read Idealize.ShloMosaic Idealize.ShloMosaic.ValueIdx
  Cert.HeadPool

variable (x0 : (⟨S32768x1024, .f32⟩ : BufTy).Contents (Elt Ideal)) (x1 : (⟨S32768x512, .f32⟩ : BufTy).Contents (Elt Ideal))
  (x2 : (⟨S512x512, .f32⟩ : BufTy).Contents (Elt Ideal)) (x3 : (⟨S512, .f32⟩ : BufTy).Contents (Elt Ideal))
  (x4 : (⟨S1024x512, .f32⟩ : BufTy).Contents (Elt Ideal)) (x5 : (⟨S512, .f32⟩ : BufTy).Contents (Elt Ideal))
  (x6 : (⟨S1024x4096, .f32⟩ : BufTy).Contents (Elt Ideal)) (x7 : (⟨S4096, .f32⟩ : BufTy).Contents (Elt Ideal))

/-- Entry (n, h, c) of the reshaped query array is the affine map of row n of the second input at column 128 h + c. -/
theorem query_apply (n : Fin 32768) (h : Fin 4) (c : Fin 128) :
    val_main_v4 (F := Ideal) x1 x2 x3 (ix3 n h c) = proj (fun r => x1 (ix2 n r)) x2 x3 (headCol h c) := by
  have e : idx_main_v4 (ix3 n h c) = ix2 n (headCol h c) := funext fun a => Fin.ext (by
    have hn := n.isLt; have hh := h.isLt; have hc := c.isLt
    match a with
    | ⟨0, _⟩ => show ((n.val * 4 + h.val) * 128 + c.val) / 512 = n.val; omega
    | ⟨1, _⟩ => show ((n.val * 4 + h.val) * 128 + c.val) % 512 = 128 * h.val + c.val; omega)
  rw [val_main_v4_apply, e, val_main_v3_apply, val_main_v0_apply, val_main_v2_apply, val_main_v1_apply]
  show _ + _ = _
  unfold proj
  refine congrArg₂ (· + ·) (Finset.sum_congr rfl fun k _ => congrArg₂ (· * ·) (congrArg x1 ?_) (congrArg x2 ?_)) (congrArg x3 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- Entry (n, h, c) of the reshaped key array is the affine map of row n of the first input at column 128 h + c. -/
theorem key_apply (n : Fin 32768) (h : Fin 4) (c : Fin 128) :
    val_main_v9 (F := Ideal) x0 x4 x5 (ix3 n h c) = proj (fun r => x0 (ix2 n r)) x4 x5 (headCol h c) := by
  have e : idx_main_v9 (ix3 n h c) = ix2 n (headCol h c) := funext fun a => Fin.ext (by
    have hn := n.isLt; have hh := h.isLt; have hc := c.isLt
    match a with
    | ⟨0, _⟩ => show ((n.val * 4 + h.val) * 128 + c.val) / 512 = n.val; omega
    | ⟨1, _⟩ => show ((n.val * 4 + h.val) * 128 + c.val) % 512 = 128 * h.val + c.val; omega)
  rw [val_main_v9_apply, e, val_main_v8_apply, val_main_v5_apply, val_main_v7_apply, val_main_v6_apply]
  show _ + _ = _
  unfold proj
  refine congrArg₂ (· + ·) (Finset.sum_congr rfl fun k _ => congrArg₂ (· * ·) (congrArg x0 ?_) (congrArg x4 ?_)) (congrArg x5 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- Entry (n, h, d) of the reshaped value array is the affine map of row n of the first input at column 1024 h + d. -/
theorem value_apply (n : Fin 32768) (h : Fin 4) (d : Fin 1024) :
    val_main_v14 (F := Ideal) x0 x6 x7 (ix3 n h d) = proj (fun r => x0 (ix2 n r)) x6 x7 (valueCol h d) := by
  have e : idx_main_v14 (ix3 n h d) = ix2 n (valueCol h d) := funext fun a => Fin.ext (by
    have hn := n.isLt; have hh := h.isLt; have hd := d.isLt
    match a with
    | ⟨0, _⟩ => show ((n.val * 4 + h.val) * 1024 + d.val) / 4096 = n.val; omega
    | ⟨1, _⟩ => show ((n.val * 4 + h.val) * 1024 + d.val) % 4096 = 1024 * h.val + d.val; omega)
  rw [val_main_v14_apply, e, val_main_v13_apply, val_main_v10_apply, val_main_v12_apply, val_main_v11_apply]
  show _ + _ = _
  unfold proj
  refine congrArg₂ (· + ·) (Finset.sum_congr rfl fun k _ => congrArg₂ (· * ·) (congrArg x0 ?_) (congrArg x6 ?_)) (congrArg x7 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The score laid over the value entries: at (n, h, d) it is head h's score of row n. -/
theorem score_apply (n : Fin 32768) (h : Fin 4) (d : Fin 1024) :
    val_main_v18 (F := Ideal) x0 x1 x2 x3 x4 x5 (ix3 n h d)
      = headScore (fun r => x0 (ix2 n r)) (fun r => x1 (ix2 n r)) x2 x3 x4 x5 h := by
  rw [val_main_v18_apply, val_main_v17_apply, val_main_v16_apply]
  show Ideal.ofBits .f32 0x00000000#32 + _ = _
  rw [Ideal.ofBits_zero_f32, zero_add]
  unfold headScore
  refine Finset.sum_congr rfl fun c _ => ?_
  have e : idx_main_v16 (idx_main_v17 (idx_main_v18 (ix3 n h d))) c = ix3 n h c :=
    funext fun a => Fin.ext (by match a with | ⟨0, _⟩ => rfl | ⟨1, _⟩ => rfl | ⟨2, _⟩ => rfl)
  rw [e, val_main_v15_apply, query_apply, key_apply]
  rfl

/-- The product the maximum is taken over: at (n, h, d) it is head h's contribution to entry d of row n. -/
theorem product_apply (n : Fin 32768) (h : Fin 4) (d : Fin 1024) :
    val_main_v19 (F := Ideal) x0 x1 x2 x3 x4 x5 x6 x7 (ix3 n h d)
      = headTerm (fun r => x0 (ix2 n r)) (fun r => x1 (ix2 n r)) x2 x3 x4 x5 x6 x7 h d := by
  rw [val_main_v19_apply, score_apply, value_apply]
  rfl

/-- The reference's result is the row-wise function of the inputs. -/
theorem result_eq : val_main_v20 (F := Ideal) x0 x1 x2 x3 x4 x5 x6 x7 = pooled x0 x1 x2 x3 x4 x5 x6 x7 := by
  funext i
  obtain ⟨n, d, rfl⟩ : ∃ (n : Fin 32768) (d : Fin 1024), i = ix2 n d := ⟨i 0, i 1, eq_ix2 i⟩
  unfold val_main_v20
  have hred : Shape.Reduces S32768x4x1024 [1] S32768x1024 := by decide
  rw [Host.reduce_eq_fold_single FloatOps.maximumf _ _ reducesTo_S32768x4x1024_S32768x1024_d1 hred h_S_ (ix2 n d)]
  have hb : val_main_cst_0 (F := Ideal) (Shape.Idx.first h_S_) = (⊥ : EReal) := Cert.LibPayOps.ofBits_f32_neg_inf
  rw [hb]
  refine (fold_max_four _).trans ?_
  have hl : ∀ h : Fin 4, hred.lift (ix2 n d) h = ix3 n h d := fun h =>
    funext fun a => Fin.ext (by match a with | ⟨0, _⟩ => rfl | ⟨1, _⟩ => rfl | ⟨2, _⟩ => rfl)
  have hg : ∀ h : Fin 4, val_main_v19 (F := Ideal) x0 x1 x2 x3 x4 x5 x6 x7 (hred.lift (ix2 n d) h)
      = headTerm (fun r => x0 (ix2 n r)) (fun r => x1 (ix2 n r)) x2 x3 x4 x5 x6 x7 h d := fun h => by
    rw [hl h, product_apply]
  exact congrArg₂ max (congrArg₂ max (congrArg₂ max (hg 0) (hg 1)) (hg 2)) (hg 3)

end Cert.ReferenceIdeal.Rows

end
-- ==== Proof.lean ====
/-
  Per-head scores times per-head values, pooled by the maximum over four heads: a tiled kernel against its
  whole-array reference, equal entry by entry on the extended reals.

  Inputs: Xd (32768 x 1024), Xo (32768 x 512), Wq (512 x 512), bq (512), Wk (1024 x 512), bk (512), Wv (1024 x 4096),
  bv (4096).  With Q = Xo Wq + bq, K = Xd Wk + bk and V = Xd Wv + bv, head h (of four) owns columns 128 h ... 128 h + 127
  of Q and K and columns 1024 h ... 1024 h + 1023 of V; its score at row n is the inner product of its 128 entries of Q
  and K, and entry (n, d) of the result is the maximum over h of  score (n, h) * V (n, 1024 h + d).

  Both programs compute exactly that.  The kernel works on 64 tiles of 512 rows; a row of the result depends on the same
  row of Xd and Xo only, so the tiles are restrictions of one whole-array function (module KernelArray, over KernelTile
  and KernelPayload).  The reference reshapes the column axes into (head, entry) and reduces; its maximum starts from
  minus infinity, which the maximum absorbs (module ReferenceRows).  The common function is HeadPoolSpec's `pooled`.
  The kernel narrows tiles and weights to sixteen bits before multiplying; on extended reals that is the identity.
  Sums, products and maxima are compared term by term in the same order, so no finiteness of the inputs is used.

  The three frame claims are the generated frames (the reference's is its generated run with the result forgotten);
  the idealization rewrote nothing, so the fourth claim is trivial.
-/
import proofs.«137346_j32753420599330_2_alg».proof.Defs
import proofs.«137346_j32753420599330_2_alg».proof.Proof.Gen.Kernel
import proofs.«137346_j32753420599330_2_alg».proof.Proof.Gen.Kernel.Skeleton
import proofs.«137346_j32753420599330_2_alg».proof.Proof.Gen.Kernel.Launch
import proofs.«137346_j32753420599330_2_alg».proof.Proof.Gen.Kernel.Points
import proofs.«137346_j32753420599330_2_alg».proof.Proof.Gen.Kernel.Frame
import proofs.«137346_j32753420599330_2_alg».proof.Proof.Gen.KernelIdeal
import proofs.«137346_j32753420599330_2_alg».proof.Proof.Gen.KernelIdeal.Skeleton
import proofs.«137346_j32753420599330_2_alg».proof.Proof.Gen.KernelIdeal.Launch
import proofs.«137346_j32753420599330_2_alg».proof.Proof.Gen.KernelIdeal.Points
import proofs.«137346_j32753420599330_2_alg».proof.Proof.Gen.KernelIdeal.Frame
import proofs.«137346_j32753420599330_2_alg».proof.Proof.Gen.ReferenceIdeal
import proofs.«137346_j32753420599330_2_alg».proof.Proof.Gen.Pre_finite_inputs
import proofs.«137346_j32753420599330_2_alg».proof.Proof.Gen.KernelIdeal.Value
import proofs.«137346_j32753420599330_2_alg».proof.Proof.Gen.ReferenceIdeal.Run
import proofs.«137346_j32753420599330_2_alg».proof.Proof.Gen.ReferenceIdeal.Read
import proofs.«137346_j32753420599330_2_alg».proof.Proof.KernelArray
import proofs.«137346_j32753420599330_2_alg».proof.Proof.ReferenceRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the row-wise function of the arguments in their
    result arrays. -/
theorem algebraic : Cert.algebraic_KernelIdeal_ReferenceIdeal := by
  intro m ρ m' ρ' _ hagree
  refine ⟨fun c => Cert.KernelIdeal.Rows.pooledOf m c, Cert.KernelIdeal.Rows.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7⟩ := hagree c
  rw [(h c).1, Cert.ReferenceIdeal.Read.val_main_v20_eq, Cert.ReferenceIdeal.Rows.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
